-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  main_v3
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16x8x128 : Shape := ⟨3, ![16, 8, 128]⟩
abbrev S1024x1 : Shape := ⟨2, ![1024, 1]⟩
abbrev S1x2048 : Shape := ⟨2, ![1, 2048]⟩
abbrev S1x8x128 : Shape := ⟨3, ![1, 8, 128]⟩
abbrev S1024x2048 : Shape := ⟨2, ![1024, 2048]⟩
abbrev S1024 : Shape := ⟨1, ![1024]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 43
  | .vmem => 6
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S1x16384, .f32⟩
  | .hbm, ⟨29, _⟩ => ⟨S16x8x128, .f32⟩
  | .hbm, ⟨30, _⟩ => ⟨S16x1x1, .f32⟩
  | .hbm, ⟨31, _⟩ => ⟨S16, .f32⟩
  | .hbm, ⟨32, _⟩ => ⟨S_, .f32⟩
  | .hbm, ⟨33, _⟩ => ⟨S_, .f32⟩
  | .hbm, ⟨34, _⟩ => ⟨S16384, .i32⟩
  | .hbm, ⟨35, _⟩ => ⟨S_, .i32⟩
  | .hbm, ⟨36, _⟩ => ⟨S_, .i32⟩
  | .hbm, ⟨37, _⟩ => ⟨S16384, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .f32⟩
  | .hbm, ⟨42, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x2048, .f32⟩
  | .local _ .vmem, ⟨3, _⟩ => ⟨S1x2048, .f32⟩
  | .local _ .vmem, ⟨4, _⟩ => ⟨S1x8x128, .f32⟩
  | .local _ .vmem, ⟨5, _⟩ => ⟨S1x8x128, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1x8x128_S1x8x128_0_0_0 : ∀ a, (![0, 0, 0] : Fin 3 → Nat) a + S1x8x128.size a ≤ S1x8x128.size a
  h_S1x8x128 : 0 < S1x8x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  shapeCasts_S1x8x128_S1x8x128 : S1x8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  natLt_1_32 : 1 < 32
  reducesTo_S16384_S_d0 : S16384.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_v13) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S16384x1, .f32⟩
  | .hbm, ⟨17, _⟩ => ⟨S1x16384, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384x16384, .f32⟩
  | .hbm, ⟨26, _⟩ => ⟨S16384x16384, .f32⟩
  | .hbm, ⟨27, _⟩ => ⟨S16384x1, .i1⟩
  | .hbm, ⟨28, _⟩ => ⟨S1x16384, .i1⟩
  | .hbm, ⟨29, _⟩ => ⟨S16384x16384, .i1⟩
  | .hbm, ⟨30, _⟩ => ⟨S16384x16384, .i1⟩
  | .hbm, ⟨31, _⟩ => ⟨S16384x16384, .i1⟩
  | .hbm, ⟨32, _⟩ => ⟨S16384, .i32⟩
  | .hbm, ⟨33, _⟩ => ⟨S_, .i32⟩
  | .hbm, ⟨34, _⟩ => ⟨S_, .i32⟩
  | .hbm, ⟨35, _⟩ => ⟨S16384, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S16384x16384, .f32⟩
  | .hbm, ⟨42, _⟩ => ⟨S16384x16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  natLt_1_32 : 1 < 32
  reducesTo_S16384_S_d0 : S16384.ReducesTo [0] S_
  h_S_ : 0 < S_.numel
  reducesTo_S16384x16384_S_d0_1 : S16384x16384.ReducesTo [0, 1] S_

variable [Facts₀]

class Facts : Prop extends Facts₀ where

variable [Facts]
-- ==== Proof.KernelCases.lean ====
/-
  What one run of the kernel body leaves in the output block, in each of its two control cases.

  The body first tests whether the column-tile coordinate is 0. If it is, it overwrites the output block with zeros; then,
  in both cases, it reads the two input slivers and the output block, and stores back "output block + (sum over the
  tile of the clamped pairwise sums), repeated over the whole block" (the payload written k0_pay2 below, a function of
  the two slivers and of the block it read). So:

    * first column tile:  the block becomes  k0_pay2 t u zeros   (the zeros are the payload k0_pay1);
    * later column tiles: the block becomes  k0_pay2 t u previous.

  Both facts hold for any float interpretation: they only say which stores cover the block and what the loads read.
-/
import proofs.«163605_j69672959475956_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Later column tiles: the block that held `xo` ends holding the payload of the two slivers and `xo`. -/
theorem out_B (c : Dev nD) (i : grid0.Coords) (a2 : Memref sig .tc .vmem S1024x1 .f32) (h2 : a2.IsWhole)
    (a3 : Memref sig .tc .vmem S1x2048 .f32) (h3 : a3.IsWhole) (a4 : Memref sig .tc .vmem S1x8x128 .f32) (h4 : a4.IsWhole)
    (hc : ¬cond0_0 i) (x0 : Vec F S1024x1 .f32) (x1 : Vec F S1x2048 .f32) (xo : Vec F S1x8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S1024x1) hz2,
    View.ld_unit_zero (S := S1x2048) hz2, View.ld_unit_zero (S := S1x8x128) hz3]

/-- First column tile: the block is zeroed, read back, and ends holding the payload of the two slivers and the zeros. -/
theorem out_A (c : Dev nD) (i : grid0.Coords) (a2 : Memref sig .tc .vmem S1024x1 .f32) (h2 : a2.IsWhole)
    (a3 : Memref sig .tc .vmem S1x2048 .f32) (h3 : a3.IsWhole) (a4 : Memref sig .tc .vmem S1x8x128 .f32) (h4 : a4.IsWhole)
    (hc : cond0_0 i) (x0 : Vec F S1024x1 .f32) (x1 : Vec F S1x2048 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S1024x1) hz2,
    View.ld_unit_zero (S := S1x2048) hz2, View.ld_unit_zero (S := S1x8x128) hz3]

end Cert.KernelIdeal.Cases

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KernelTile.lean ====
/-
  The arithmetic of one grid point, read entry by entry over the extended reals.

  The body takes a column sliver t (1024 x 1), a row sliver u (1 x 2048) and the output block acc (1 x 8 x 128). It forms the
  1024 x 2048 table max(t_r + u_r', 0), sums each row along the lanes, sums the 1024 row sums, and adds that one number to
  every entry of acc. Over the extended reals each of the two reductions is a plain finite sum (their starting value is
  the zero word), and the reshapes between them only rename positions of one-element or one-column arrays. So every
  entry y of the result is

      acc y + sum over r < 1024 of sum over r' < 2048 of max(t (r, 0) + u (0, r'), 0).
-/
import proofs.«163605_j69672959475956_2_alg».proof.Proof.Gen.KernelIdeal.Skeleton
import proofs.«163605_j69672959475956_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-- The sum over one tile of the clamped pairwise sums of a column sliver and a row sliver. -/
def tileSum (x0 : FVec Ideal S1024x1 .f32) (x1 : FVec Ideal S1x2048 .f32) : EReal :=
  ∑ r : Fin 1024, ∑ r' : Fin 2048, max (x0 (ix2 r (0 : Fin 1)) + x1 (ix2 (0 : Fin 1) r')) 0

/-- A lane reduction of a 1024 x 2048 table from the zero word: entry r is the sum of row r. -/
theorem lane_sum (v : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ r' : Fin 2048, v (ix2 r r') := by
  refine (Ideal.multiReduction_add_single v 0x00000000#32 h hφ hacc (ix1 r)).trans ?_
  show ∑ k : Fin 2048, v (h.lift (ix1 r) k) = _
  refine Finset.sum_congr rfl fun k _ => congrArg v ?_
  funext c
  apply Fin.ext
  match c with
  | ⟨0, _⟩ => rfl
  | ⟨1, _⟩ => rfl

/-- A sublane reduction of a 1024 x 1 column from the zero word: its one entry is the sum of the column. -/
theorem sublane_sum (v : FVec Ideal S1024x1 .f32) (h : S1024x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 1024, v (ix2 r (0 : Fin 1)) := by
  refine (Ideal.multiReduction_add_single v 0x00000000#32 h hφ hacc (ix1 u)).trans ?_
  show ∑ k : Fin 1024, v (h.lift (ix1 u) k) = _
  refine Finset.sum_congr rfl fun k _ => congrArg v ?_
  have hu : u.val = 0 := by omega
  funext c
  apply Fin.ext
  match c with
  | ⟨0, _⟩ => rfl
  | ⟨1, _⟩ => exact hu

/-- The payload at an entry: the block's entry plus the tile's sum. -/
theorem pay2_apply (x0 : FVec Ideal S1024x1 .f32) (x1 : FVec Ideal S1x2048 .f32) (acc : FVec Ideal S1x8x128 .f32)
    (y : S1x8x128.Idx) : k0_pay2 (F := Ideal) x0 x1 acc y = acc y + tileSum x0 x1 := by
  unfold k0_pay2
  dsimp only
  simp only [shapeCast_self]
  rw [addf_apply]
  congr 1
  refine (broadcastTo_apply _ _ y (ix3 (0 : Fin 1) (0 : Fin 1) (0 : Fin 1)) ?_).trans ?_
  · intro a
    rw [if_pos (by fin_cases a <;> rfl)]
    fin_cases a <;> rfl
  refine (shapeCast_ab_1ab_apply _ _ (0 : Fin 1) (0 : Fin 1) (0 : Fin 1)).trans ?_
  refine (shapeCast_a_1a_apply _ _ (0 : Fin 1) (0 : Fin 1)).trans ?_
  refine (sublane_sum _ _ _ _ (0 : Fin 1)).trans ?_
  unfold tileSum
  refine Finset.sum_congr rfl fun r _ => ?_
  refine (Cert.LibColumn.shapeCast_a_a1_apply _ _ r (0 : Fin 1)).trans ?_
  refine (lane_sum _ _ _ _ r).trans ?_
  refine Finset.sum_congr rfl fun r' _ => ?_
  rw [maximumf_apply, addf_apply, Cert.LibColumn.broadcastTo_a1_ab_apply, broadcastTo_1b_ab_apply, broadcast_apply]
  show max _ (Ideal.ofBits .f32 0x00000000#32) = _
  rw [Ideal.ofBits_zero_f32]

end Cert.KernelIdeal.Tile

end
-- ==== Proof.HingeLaw.lean ====
/-
  The pointwise arithmetic that joins a tiled, sentinel-masked pairwise hinge to the plainly masked one (the regrouping of
  the sums is in LibTileSums).

  Write c for the margin, n for a very negative sentinel, s and s' for two sigmoid values, p and q for the two
  membership bits. The tiled form adds (p ? c - s : n) and (q ? s' : n) and clamps the sum at 0 from below; the plain
  form clamps c - (s - s') and then keeps it only when both bits are set, else 0. When both bits are set the two sums are
  the same real number. When a bit is clear the tiled sum contains the sentinel, and since c <= 1, n <= -1 and
  0 <= s, s' <= 1 it is at most 0, so the clamp returns 0. This uses that s and s' are real numbers: with an infinite s
  the rearrangement (c - s) + s' = c - (s - s') fails.
-/
import Idealize.ShloMosaic.PureOps.Ideal
import Idealize.ShloMosaic.PureOps.Ideal.Laws
import Idealize.ShloMosaic.Lib.ValueIdx

noncomputable section

namespace Cert.HingeLaw

open Idealize.ShloMosaic

/-- The margin word denotes 10066330 / 2^25 (about 0.3). -/
theorem margin_val : Ideal.ofBits .f32 0x3E99999A#32 = ((10066330 / 33554432 : ℝ) : EReal) := by
  simp [Ideal.ofBits, Ideal.ieee, -EReal.coe_mul] <;> norm_num

/-- The sentinel word denotes -13234890 * 2^76 (about -1e30). -/
theorem sentinel_val : Ideal.ofBits .f32 0xF149F2CA#32 = ((-(13234890 * 2 ^ 76) : ℝ) : EReal) := by
  simp [Ideal.ofBits, Ideal.ieee, -EReal.coe_mul] <;> norm_num

/-- The tiled form of one pair's contribution. -/
def tiled (c n : EReal) (p q : BitVec 1) (s s' : EReal) : EReal :=
  max (Scalar.select p (c - s) n + Scalar.select q s' n) 0

/-- The plain form of one pair's contribution. -/
def plain (c : EReal) (p q : BitVec 1) (s s' : EReal) : EReal :=
  Scalar.select (IntOp.andi p q) (max (c - (s - s')) 0) 0

theorem bit_cases (p : BitVec 1) : p = 1#1 ∨ p = 0#1 := by
  by_cases h : p = 1#1
  · exact Or.inl h
  · exact Or.inr (ValueIdx.eq_zero_of_ne_one h)

/-- The pointwise law, for real margin c <= 1, real sentinel n <= -1 and real sigmoid values in [0, 1]. -/
theorem tiled_eq_plain (c n s s' : ℝ) (hc : c ≤ 1) (hn : n ≤ -1) (hs0 : 0 ≤ s) (hs'1 : s' ≤ 1) (p q : BitVec 1) :
    tiled (c : EReal) (n : EReal) p q (s : EReal) (s' : EReal) = plain (c : EReal) p q (s : EReal) (s' : EReal) := by
  unfold tiled plain
  rcases bit_cases p with rfl | rfl <;> rcases bit_cases q with rfl | rfl
  · have e : IntOp.andi (1#1) (1#1) = 1#1 := by decide
    rw [e, ValueIdx.select_one, ValueIdx.select_one, ValueIdx.select_one]
    congr 1
    norm_cast
    ring
  · have e : IntOp.andi (1#1) (0#1) = 0#1 := by decide
    rw [e, ValueIdx.select_one, ValueIdx.select_zero, ValueIdx.select_zero]
    apply max_eq_right
    have : c - s + n ≤ 0 := by linarith
    exact_mod_cast this
  · have e : IntOp.andi (0#1) (1#1) = 0#1 := by decide
    rw [e, ValueIdx.select_zero, ValueIdx.select_one, ValueIdx.select_zero]
    apply max_eq_right
    have : n + s' ≤ 0 := by linarith
    exact_mod_cast this
  · have e : IntOp.andi (0#1) (0#1) = 0#1 := by decide
    rw [e, ValueIdx.select_zero, ValueIdx.select_zero, ValueIdx.select_zero]
    apply max_eq_right
    have : n + n ≤ 0 := by linarith
    exact_mod_cast this

end Cert.HingeLaw

end
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.Spec.lean ====
/-
  The quantity both programs compute, written twice, and the proof that the two writings agree.

  From the score vector x (16384 extended reals) and the label vector y (16384 integers):
    sg n  = sigma(x_n)                 (the sigmoid 1 / (1 + exp(-x_n)))
    pb n  = the bit "y_n = 1"          (n is on the positive side)
    nb n  = the bit "y_n = 0"          (n is on the negative side)
  read through total functions of a natural number n (outside 0..16383 they are 0), so that tile arithmetic on positions
  is plain arithmetic on naturals.

  plainTotal = sum over all pairs (i, j) of  [pb i and nb j] ? max(c - (sg i - sg j), 0) : 0.
  tile n     = for grid point n (row tile n / 8 of 1024 positions, column tile n % 8 of 2048 positions), the sum over the
               pairs of that tile of  max((pb i ? c - sg i : N) + (nb j ? sg j : N), 0),  N the sentinel.
  tiledTotal = sum over the 16 x 8 tiles of tile.

  When every x_n is a real number, sigma(x_n) is a real number in [0, 1], the two pointwise forms agree
  (HingeLaw.tiled_eq_plain) and the tiles partition the pairs (LibTileSums.sum_tiles): tiledTotal = plainTotal.
-/
import proofs.«163605_j69672959475956_2_alg».proof.Proof.HingeLaw
import proofs.«163605_j69672959475956_2_alg».proof.Proof.LibTileSums

noncomputable section

namespace Cert.Spec

open Idealize.ShloMosaic Idealize.ShloMosaic.ValueIdx

/-- sigma of entry n of the score vector (0 outside the vector). -/
def sg (x : (⟨1, ![16384]⟩ : Shape).Idx → EReal) (n : ℕ) : EReal :=
  if h : n < 16384 then Ideal.logistic (x (ix1 ⟨n, h⟩)) else 0

/-- The bit "label n is 1". -/
def pb (y : (⟨1, ![16384]⟩ : Shape).Idx → BitVec 32) (n : ℕ) : BitVec 1 :=
  if h : n < 16384 then IntOp.cmpi .eq (y (ix1 ⟨n, h⟩)) 1#32 else 0#1

/-- The bit "label n is 0". -/
def nb (y : (⟨1, ![16384]⟩ : Shape).Idx → BitVec 32) (n : ℕ) : BitVec 1 :=
  if h : n < 16384 then IntOp.cmpi .eq (y (ix1 ⟨n, h⟩)) 0#32 else 0#1

theorem sg_fin (x : (⟨1, ![16384]⟩ : Shape).Idx → EReal) (a : Fin 16384) : sg x a.val = Ideal.logistic (x (ix1 a)) := by
  unfold sg; rw [dif_pos a.isLt]
theorem pb_fin (y : (⟨1, ![16384]⟩ : Shape).Idx → BitVec 32) (a : Fin 16384) : pb y a.val = IntOp.cmpi .eq (y (ix1 a)) 1#32 := by
  unfold pb; rw [dif_pos a.isLt]
theorem nb_fin (y : (⟨1, ![16384]⟩ : Shape).Idx → BitVec 32) (a : Fin 16384) : nb y a.val = IntOp.cmpi .eq (y (ix1 a)) 0#32 := by
  unfold nb; rw [dif_pos a.isLt]

/-- The sum over all pairs of the plainly masked hinge. -/
def plainTotal (x : (⟨1, ![16384]⟩ : Shape).Idx → EReal) (y : (⟨1, ![16384]⟩ : Shape).Idx → BitVec 32) : EReal :=
  ∑ i : Fin 16384, ∑ j : Fin 16384,
    HingeLaw.plain (Ideal.ofBits .f32 0x3E99999A#32) (pb y i.val) (nb y j.val) (sg x i.val) (sg x j.val)

/-- The contribution of the tile of grid point n. -/
def tile (x : (⟨1, ![16384]⟩ : Shape).Idx → EReal) (y : (⟨1, ![16384]⟩ : Shape).Idx → BitVec 32) (n : ℕ) : EReal :=
  ∑ r : Fin 1024, ∑ r' : Fin 2048,
    HingeLaw.tiled (Ideal.ofBits .f32 0x3E99999A#32) (Ideal.ofBits .f32 0xF149F2CA#32)
      (pb y (1024 * (n / 8) + r.val)) (nb y (2048 * (n % 8) + r'.val))
      (sg x (1024 * (n / 8) + r.val)) (sg x (2048 * (n % 8) + r'.val))

/-- The sum of the 16 x 8 tiles. -/
def tiledTotal (x : (⟨1, ![16384]⟩ : Shape).Idx → EReal) (y : (⟨1, ![16384]⟩ : Shape).Idx → BitVec 32) : EReal :=
  ∑ I : Fin 16, ∑ J : Fin 8, tile x y (8 * I.val + J.val)

/-- The sigmoid of a real score is a real number between 0 and 1. -/
theorem sg_real (x : (⟨1, ![16384]⟩ : Shape).Idx → EReal) (hfin : ∀ i, ∃ r : ℝ, x i = (r : EReal)) (n : ℕ) :
    ∃ s : ℝ, sg x n = (s : EReal) ∧ 0 ≤ s ∧ s ≤ 1 := by
  unfold sg
  by_cases h : n < 16384
  · rw [dif_pos h]
    obtain ⟨r, hr⟩ := hfin (ix1 ⟨n, h⟩)
    rw [hr, Ideal.logistic_coe]
    have hpos : (0 : ℝ) < Real.exp (-r) := Real.exp_pos _
    refine ⟨(1 + Real.exp (-r))⁻¹, rfl, ?_, ?_⟩
    · exact inv_nonneg.mpr (by linarith)
    · exact inv_le_one_of_one_le₀ (by linarith)
  · rw [dif_neg h]
    exact ⟨0, rfl, le_refl _, zero_le_one⟩

/-- For real scores the tiled total is the plain total. -/
theorem totals_eq (x : (⟨1, ![16384]⟩ : Shape).Idx → EReal) (y : (⟨1, ![16384]⟩ : Shape).Idx → BitVec 32)
    (hfin : ∀ i, ∃ r : ℝ, x i = (r : EReal)) : tiledTotal x y = plainTotal x y := by
  unfold tiledTotal plainTotal
  refine Eq.trans ?_ (LibTileSums.sum_tiles 16 1024 8 2048
    (fun i j => HingeLaw.plain (Ideal.ofBits .f32 0x3E99999A#32) (pb y i) (nb y j) (sg x i) (sg x j))).symm
  refine Finset.sum_congr rfl fun I _ => Finset.sum_congr rfl fun J _ => ?_
  unfold tile
  have hI : (8 * I.val + J.val) / 8 = I.val := by have := J.isLt; omega
  have hJ : (8 * I.val + J.val) % 8 = J.val := by have := J.isLt; omega
  rw [hI, hJ]
  refine Finset.sum_congr rfl fun r _ => Finset.sum_congr rfl fun r' _ => ?_
  obtain ⟨s, hs, hs0, _⟩ := sg_real x hfin (1024 * I.val + r.val)
  obtain ⟨s', hs', _, hs'1⟩ := sg_real x hfin (2048 * J.val + r'.val)
  rw [hs, hs', HingeLaw.margin_val, HingeLaw.sentinel_val]
  exact HingeLaw.tiled_eq_plain _ _ s s' (by norm_num) (by norm_num) hs0 hs'1 _ _

end Cert.Spec

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.KernelEntry.lean ====
/-
  The two arrays the kernel's grid reads, as functions of the program's inputs.

  Before the grid runs, the host part of the program computes from the scores x and labels y
    the sigmoid vector         s_n = 1 / (1 + exp(-x_n)),
    the column array (16384 x 1)   t_n = (y_n = 1) ? c - s_n : N,
    the row array    (1 x 16384)   u_n = (y_n = 0) ? s_n : N,
  with c the margin word and N the sentinel word. Entry (n, 0) of the column array and entry (0, n) of the row array are
  therefore the two summands of Spec's tiled form at position n. A grid point t = 8 I + J stages rows 1024 I .. 1024 I + 1023
  of the column array and columns 2048 J .. 2048 J + 2047 of the row array, so the tile sum of its two blocks is Spec.tile
  at t.
-/
import proofs.«163605_j69672959475956_2_alg».proof.Proof.Gen.KernelIdeal.Frame
import proofs.«163605_j69672959475956_2_alg».proof.Proof.KernelTile
import proofs.«163605_j69672959475956_2_alg».proof.Proof.Spec
import proofs.«163605_j69672959475956_2_alg».proof.Proof.LibSpellings
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Entry

open Cert.KernelIdeal Cert.KernelIdeal.Gen

/-- The sigmoid vector as the host spells it. -/
def sgm (x0 : FVec Ideal S16384 .f32) : FVec Ideal S16384 .f32 :=
  Host.divf (F := Ideal) (broadcastInDim S16384 ![] bcast_S_S16384 (constant (F := Ideal) S_ .f32 0x3F800000#32))
    (addf (broadcastInDim S16384 ![] bcast_S_S16384 (constant (F := Ideal) S_ .f32 0x3F800000#32)) (Host.exp (F := Ideal) (Host.negf (F := Ideal) x0)))

/-- The column operand before its reshape: margin minus sigmoid on the positive side, the sentinel elsewhere. -/
def tvec (x0 : FVec Ideal S16384 .f32) (x1 : IVec S16384 32) : FVec Ideal S16384 .f32 :=
  select (cmpi .eq x1 (broadcastInDim S16384 ![] bcast_S_S16384 (constantI S_ 32 1#32)))
    (subf (broadcastInDim S16384 ![] bcast_S_S16384 (constant (F := Ideal) S_ .f32 0x3E99999A#32)) (sgm x0))
    (broadcastInDim S16384 ![] bcast_S_S16384 (id (constant (F := Ideal) S_ .f32 0xF149F2CA#32)))

/-- The row operand before its reshape: the sigmoid on the negative side, the sentinel elsewhere. -/
def uvec (x0 : FVec Ideal S16384 .f32) (x1 : IVec S16384 32) : FVec Ideal S16384 .f32 :=
  select (cmpi .eq x1 (broadcastInDim S16384 ![] bcast_S_S16384 (constantI S_ 32 0#32)))
    (sgm x0)
    (broadcastInDim S16384 ![] bcast_S_S16384 (id (constant (F := Ideal) S_ .f32 0xF149F2CA#32)))

variable (m : (ℓ : Loc nD τ sig) → Buf (Elt Ideal) ℓ)

/-- The column array as the grid finds it. -/
theorem V13_eq (c : Dev nD) : (V m c main_v13 : S16384x1.Idx → EReal)
    = shapeCast S16384x1 (tvec (m ((c : Thread nD τ).loc main_arg0)) (m ((c : Thread nD τ).loc main_arg1))) shapeCasts_S16384_S16384x1 := by
  dsimp only [V, V0]
  simp only [hostOps0, hostOps0_1, hostOps0_2, hostOps0_3, hostOps0_4, List.flatten_cons, List.flatten_nil, List.append_nil,
    List.cons_append, List.nil_append]
  after_results
  rfl

/-- The row array as the grid finds it. -/
theorem V15_eq (c : Dev nD) : (V m c main_v15 : S1x16384.Idx → EReal)
    = shapeCast S1x16384 (uvec (m ((c : Thread nD τ).loc main_arg0)) (m ((c : Thread nD τ).loc main_arg1))) shapeCasts_S16384_S1x16384 := by
  dsimp only [V, V0]
  simp only [hostOps0, hostOps0_1, hostOps0_2, hostOps0_3, hostOps0_4, List.flatten_cons, List.flatten_nil, List.append_nil,
    List.cons_append, List.nil_append]
  after_results
  rfl

/-- A scalar broadcast to the vector reads the scalar everywhere. -/
theorem bcast0_apply {α : Type} (v : S_.Idx → α) (i : S16384.Idx) :
    broadcastInDim S16384 ![] bcast_S_S16384 v i = v ix0 :=
  broadcastInDim_apply _ bcast_S_S16384 v i ix0 (fun a => a.elim0)

theorem cmpi_apply (p : CmpIPredicate) (x y : IVec S16384 32) (i : S16384.Idx) :
    cmpi p x y i = IntOp.cmpi p (x i) (y i) := rfl

/-- Entry n of the sigmoid vector. -/
theorem sgm_apply (x0 : FVec Ideal S16384 .f32) (a : Fin 16384) : sgm x0 (ix1 a) = Spec.sg x0 a.val := by
  rw [Spec.sg_fin]
  unfold sgm
  show FloatOps.hostDivf (F := Ideal) _ _ = _
  rw [bcast0_apply, addf_apply, bcast0_apply, constant_apply]
  show Ideal.div (Ideal.ofBits .f32 0x3F800000#32) (Ideal.ofBits .f32 0x3F800000#32 + Ideal.exp (-(x0 (ix1 a)))) = _
  rw [Cert.LibSpellings.ofBits_one_f32]
  rfl

/-- Entry n of the column operand: the first summand of the tiled form at n. -/
theorem tvec_apply (x0 : FVec Ideal S16384 .f32) (x1 : IVec S16384 32) (a : Fin 16384) :
    tvec x0 x1 (ix1 a)
      = Scalar.select (Spec.pb x1 a.val) (Ideal.ofBits .f32 0x3E99999A#32 - Spec.sg x0 a.val) (Ideal.ofBits .f32 0xF149F2CA#32) := by
  rw [Spec.pb_fin, ← sgm_apply]
  unfold tvec
  rw [select_apply, subf_apply, cmpi_apply, bcast0_apply, bcast0_apply, bcast0_apply, constant_apply, constantI_apply]
  rfl

/-- Entry n of the row operand: the second summand of the tiled form at n. -/
theorem uvec_apply (x0 : FVec Ideal S16384 .f32) (x1 : IVec S16384 32) (a : Fin 16384) :
    uvec x0 x1 (ix1 a) = Scalar.select (Spec.nb x1 a.val) (Spec.sg x0 a.val) (Ideal.ofBits .f32 0xF149F2CA#32) := by
  rw [Spec.nb_fin, ← sgm_apply]
  unfold uvec
  rw [select_apply, cmpi_apply, bcast0_apply, bcast0_apply, constantI_apply]
  rfl

/-- The column window's block index at point t: row tile t / 8, the one column. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)

/-- The row window's block index at point t: the one row, column tile t % 8. -/
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)

/-- Row r of the column block at point t is entry 1024 (t / 8) + r of the column operand. -/
theorem iblk0_apply (c : Dev nD) (t : Fin cfg0.N) (r : Fin 1024) (u : Fin 1) (hb : 1024 * (t.val / 8) + r.val < 16384) :
    (iblk m c 0 t : S1024x1.Idx → EReal) (ix2 r u)
      = tvec (m ((c : Thread nD τ).loc main_arg0)) (m ((c : Thread nD τ).loc main_arg1)) (ix1 ⟨1024 * (t.val / 8) + r.val, hb⟩) := by
  unfold iblk
  rw [View.read_apply]
  show V m c main_v13 _ = _
  rw [V13_eq]
  refine shapeCast_apply _ _ _ _ ?_
  rw [Shape.rowMajor_val_two, Shape.rowMajor_val_one]
  show 1024 * (t.val / 8) + r.val = (win0_0.index t 0 * 1024 + 1 * r.val) * 1 + (win0_0.index t 1 * 1 + 1 * u.val)
  rw [(idx0 t).1, (idx0 t).2]
  have := u.isLt
  omega

/-- Column r' of the row block at point t is entry 2048 (t % 8) + r' of the row operand. -/
theorem iblk1_apply (c : Dev nD) (t : Fin cfg0.N) (u : Fin 1) (r' : Fin 2048) (hb : 2048 * (t.val % 8) + r'.val < 16384) :
    (iblk m c 1 t : S1x2048.Idx → EReal) (ix2 u r')
      = uvec (m ((c : Thread nD τ).loc main_arg0)) (m ((c : Thread nD τ).loc main_arg1)) (ix1 ⟨2048 * (t.val % 8) + r'.val, hb⟩) := by
  unfold iblk
  rw [View.read_apply]
  show V m c main_v15 _ = _
  rw [V15_eq]
  refine shapeCast_apply _ _ _ _ ?_
  rw [Shape.rowMajor_val_two, Shape.rowMajor_val_one]
  show 2048 * (t.val % 8) + r'.val = (win0_1.index t 0 * 1 + 1 * u.val) * 16384 + (win0_1.index t 1 * 2048 + 1 * r'.val)
  rw [(idx1 t).1, (idx1 t).2]
  have := u.isLt
  omega

/-- The tile sum of the two blocks staged at point t is Spec's tile t. -/
theorem tile_eq (c : Dev nD) (t : Fin cfg0.N) :
    Tile.tileSum (iblk m c 0 t) (iblk m c 1 t)
      = Spec.tile (m ((c : Thread nD τ).loc main_arg0)) (m ((c : Thread nD τ).loc main_arg1)) t.val := by
  have hN : t.val < 128 := lt_of_lt_of_eq t.isLt (show cfg0.N = 128 from N_0)
  unfold Tile.tileSum Spec.tile
  refine Finset.sum_congr rfl fun r _ => Finset.sum_congr rfl fun r' _ => ?_
  have hb0 : 1024 * (t.val / 8) + r.val < 16384 := by have := r.isLt; omega
  have hb1 : 2048 * (t.val % 8) + r'.val < 16384 := by have := r'.isLt; omega
  rw [iblk0_apply m c t r 0 hb0, iblk1_apply m c t 0 r' hb1, tvec_apply, uvec_apply]
  rfl

end Cert.KernelIdeal.Entry

end
-- ==== Proof.KernelAcc.lean ====
/-
  The output array after the grid.

  The output block of row tile I is carried across the 8 grid points 8 I, ..., 8 I + 7 of that row tile and written back
  after the last of them. At the first it is reset and receives tile 8 I; at each later point it receives, added to what
  it held, the tile of that point. By induction on the point, after point n every entry of the block holds

      partialSum n = sum over k <= n % 8 of tile (8 (n / 8) + k),

  so the block written back at point 8 I + 7 holds at every entry the sum of the 8 tiles of row tile I. The 16 blocks
  tile the 16 x 8 x 128 output array (block I is its slab I), so after the grid entry (I, a, b) of the array is that sum.
-/
import proofs.«163605_j69672959475956_2_alg».proof.Proof.KernelCases
import proofs.«163605_j69672959475956_2_alg».proof.Proof.KernelEntry

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- Tile n of the program's inputs on device c. -/
abbrev tileOf (c : Dev nD) (n : ℕ) : EReal :=
  Spec.tile (m ((c : Thread nD τ).loc main_arg0)) (m ((c : Thread nD τ).loc main_arg1)) n

/-- The sum of the tiles of n's row tile, up to and including n. -/
def partialSum (c : Dev nD) (n : ℕ) : EReal := ∑ k ∈ Finset.range (n % 8 + 1), tileOf m c (8 * (n / 8) + k)

/-- The reset block is zero everywhere. -/
theorem pay1_apply (y : S1x8x128.Idx) : k0_pay1 (F := Ideal) y = 0 := by
  unfold k0_pay1
  rw [broadcast_apply]
  exact Ideal.ofBits_zero_f32

/-- At the first point of a row tile every entry of the block ends at that point's tile. -/
theorem step_A (c : Dev nD) (t : Fin cfg0.N) (h0 : t.val % 8 = 0) (y : S1x8x128.Idx) :
    outsAt0 m c t.val t.isLt y = tileOf m c t.val := by
  have e := outsAt0_A m c t h0
  have e2 := Cases.out_A (F := Ideal) c (grid0.coords t) (ms0_0 t) (hs0_0 t) (ms0_1 t) (hs0_1 t) (ms0_2 t) (hs0_2 t)
    ((hcond0_0 t).mpr h0) (iblk m c 0 t) (iblk m c 1 t)
  refine (congrFun (e.trans e2) y).trans ?_
  refine (Tile.pay2_apply (iblk m c 0 t) (iblk m c 1 t) (k0_pay1 (F := Ideal)) y).trans ?_
  rw [pay1_apply, zero_add]
  exact Entry.tile_eq m c t

/-- At a later point every entry ends at what the point before left there plus that point's tile. -/
theorem step_B (c : Dev nD) (t : Fin cfg0.N) (h0 : ¬t.val % 8 = 0) (y : S1x8x128.Idx) :
    outsAt0 m c t.val t.isLt y
      = outsAt0 m c (t.val - 1) (Nat.lt_of_le_of_lt (Nat.sub_le _ _) t.isLt) y + tileOf m c t.val := by
  have e := outsAt0_B m c t h0
  have e2 := Cases.out_B (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))
  refine (congrFun (e.trans e2) y).trans ?_
  refine (Tile.pay2_apply (iblk m c 0 t) (iblk m c 1 t)
    (outsAt0 m c (t.val - 1) (Nat.lt_of_le_of_lt (Nat.sub_le _ _) t.isLt)) y).trans ?_
  rw [Entry.tile_eq m c t]

/-- After point n every entry of the carried block holds the running sum of n's row tile. -/
theorem outsAt_eq (c : Dev nD) : ∀ (n : ℕ) (h : n < cfg0.N) (y : S1x8x128.Idx), outsAt0 m c n h y = partialSum m c n
  | 0, h, y => by
    refine (step_A m c ⟨0, h⟩ rfl y).trans ?_
    unfold partialSum
    simp
  | n + 1, h, y => by
    by_cases h0 : (n + 1) % 8 = 0
    · refine (step_A m c ⟨n + 1, h⟩ h0 y).trans ?_
      unfold partialSum
      show tileOf m c (n + 1) = _
      rw [h0, Finset.sum_range_one]
      congr 1
      omega
    · refine (step_B m c ⟨n + 1, h⟩ h0 y).trans ?_
      show outsAt0 m c n _ y + tileOf m c (n + 1) = _
      rw [outsAt_eq c n _ y]
      unfold partialSum
      have h1 : (n + 1) % 8 = n % 8 + 1 := by omega
      have h2 : (n + 1) / 8 = n / 8 := by omega
      rw [h1, h2, Finset.sum_range_succ _ (n % 8 + 1)]
      congr 2
      omega

/-- The output array after the grid: entry (I, a, b) is the sum of the 8 tiles of row tile I. -/
def finalArr (c : Dev nD) : S16x8x128.Idx → EReal := fun j => partialSum m c (8 * (j 0).val + 7)

/-- The output window's block index at point t: slab t / 8. -/
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- What a flushing point writes back is its block of the final array. -/
theorem flushed_eq (c : Dev nD) (t : Fin cfg0.N) (hf : (cfg0.win 2).flush t = true) :
    (dats m 0 c).flushed 2 t = ((cfg0.win 2).blk t).view.read (Elt Ideal) (finalArr m c) := by
  have h7 : t.val % 8 = 7 := (flush0_2 t).mp hf
  show (cfg0.win 2).cut (grid0.coords t) ((dats m 0 c).after 2 t) = _
  rw [after0_2]
  funext y
  rw [View.read_apply]
  show outsAt0 m c t.val t.isLt y = partialSum m c (8 * (win0_2.index t 0 * 1 + 1 * (y 0).val) + 7)
  rw [outsAt_eq m c t.val t.isLt y, (idx2 t).1]
  have hy : (y 0).val < 1 := (y 0).isLt
  congr 1
  omega

/-- An index of the array is in point t's block iff each coordinate is in the block's range. -/
theorem mem_blk (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v16).slice (win0_2.rect t)).set ↔ _
  rw [View.set_slice_whole, Rect.mem_set_unit]
  exact Iff.rfl

/-- Every index of the array is in the block of the last point of its row tile. -/
theorem cover (i : S16x8x128.Idx) : ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 128 := (i 2).isLt
  have hlt : 8 * (i 0).val + 7 < cfg0.N := by
    show 8 * (i 0).val + 7 < grid0.N
    rw [N_0]
    omega
  obtain ⟨e0, e1, e2⟩ := idx2 ⟨8 * (i 0).val + 7, hlt⟩
  have e0' : win0_2.index ⟨8 * (i 0).val + 7, hlt⟩ 0 = (i 0).val := by
    rw [e0]
    show (8 * (i 0).val + 7) / 8 = _
    omega
  refine ⟨⟨8 * (i 0).val + 7, hlt⟩, (flush0_2 _).mpr (by show (8 * (i 0).val + 7) % 8 = 7; omega), ?_⟩
  rw [mem_blk]
  intro a
  match a with
  | ⟨0, _⟩ =>
    show win0_2.index ⟨8 * (i 0).val + 7, hlt⟩ 0 * 1 ≤ (i 0).val ∧ (i 0).val < win0_2.index ⟨8 * (i 0).val + 7, hlt⟩ 0 * 1 + 1
    rw [e0']; omega
  | ⟨1, _⟩ =>
    show win0_2.index ⟨8 * (i 0).val + 7, hlt⟩ 1 * 8 ≤ (i 1).val ∧ (i 1).val < win0_2.index ⟨8 * (i 0).val + 7, hlt⟩ 1 * 8 + 8
    rw [e1]; omega
  | ⟨2, _⟩ =>
    show win0_2.index ⟨8 * (i 0).val + 7, hlt⟩ 2 * 128 ≤ (i 2).val ∧ (i 2).val < win0_2.index ⟨8 * (i 0).val + 7, hlt⟩ 2 * 128 + 128
    rw [e2]; omega

/-- The output array after the grid. -/
theorem final (c : Dev nD) : (dats m 0 c).arrAt 2 cfg0.N = finalArr m c :=
  (dats m 0 c).arrAt_eq_of_cover 2 (finalArr m c) (flushed_eq m c) (cover)

end Cert.KernelIdeal.Acc

end
-- ==== Proof.KernelTail.lean ====
/-
  The kernel program's result.

  After the grid the host part takes entry (I, 0, 0) of each of the 16 slabs of the output array, sums these 16 numbers from
  the zero word, and divides by the pair count (the number of labels equal to 1 times the number equal to 0, converted to
  a float). Entry (I, 0, 0) is the sum of the 8 tiles of row tile I, so the numerator is the sum of all 16 x 8 tiles: the
  tiled total. The denominator depends on the labels only and is kept as one definition, never opened: the reference
  divides by the same expression.
-/
import proofs.«163605_j69672959475956_2_alg».proof.Proof.KernelAcc

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen

/-- The pair count as a float: (number of labels equal to 1) x (number equal to 0), as the host computes it. -/
def denK (x1 : IVec S16384 32) : FVec Ideal S_ .f32 :=
  sitofp (F := Ideal) .f32
    (muli
      (Host.reduce IntOp.addi (extui 32 (cmpi .eq x1 (broadcastInDim S16384 ![] bcast_S_S16384 (constantI S_ 32 1#32))) natLt_1_32)
        (constantI S_ 32 0#32) reducesTo_S16384_S_d0 h_S_)
      (Host.reduce IntOp.addi (extui 32 (cmpi .eq x1 (broadcastInDim S16384 ![] bcast_S_S16384 (constantI S_ 32 0#32))) natLt_1_32)
        (constantI S_ 32 0#32) reducesTo_S16384_S_d0 h_S_))

/-- The host's numerator of an output array: entries (I, 0, 0) sliced out, flattened, summed from the zero word. -/
def numK (A : S16x8x128.Idx → EReal) : FVec Ideal S_ .f32 :=
  Host.reduceAdd (F := Ideal)
    (shapeCast S16 (extractStridedSlice S16x1x1 ![0, 0, 0] A slices_S16x8x128_S16x1x1_0_0_0) shapeCasts_S16x1x1_S16)
    (constant (F := Ideal) S_ .f32 0x00000000#32) reducesTo_S16_S_d0 h_S_

/-- The numerator is the sum of the 16 entries (I, 0, 0). -/
theorem numK_apply (A : S16x8x128.Idx → EReal) (i : S_.Idx) :
    numK A i = ∑ I : Fin 16, A (ix3 I (0 : Fin 8) (0 : Fin 128)) := by
  unfold numK
  simp only [Host.reduceAdd, Ideal.hostReduceAdd_def]
  rw [Ideal.hostReduceAdd_total reducesTo_S16_S_d0 (fun b => b.elim0) _ _ i, constant_apply, Ideal.ofBits_zero_f32, zero_add,
    Cert.LibTileSums.sum_idx1]
  refine Finset.sum_congr rfl fun I _ => ?_
  refine (shapeCast_apply _ _ (ix1 I) (ix3 I (0 : Fin 1) (0 : Fin 1)) ?_).trans ?_
  · rw [Shape.rowMajor_val_three, Shape.rowMajor_val_one]
    show (I.val * 1 + 0) * 1 + 0 = I.val
    omega
  refine extractStridedSlice_apply _ _ _ _ (ix3 I (0 : Fin 8) (0 : Fin 128)) ?_
  intro a
  match a with
  | ⟨0, _⟩ => show I.val = 0 + I.val; omega
  | ⟨1, _⟩ => rfl
  | ⟨2, _⟩ => rfl

variable (m : (ℓ : Loc nD τ sig) → Buf (Elt Ideal) ℓ)

/-- The numerator of the final output array is the tiled total. -/
theorem num_final (c : Dev nD) (i : S_.Idx) :
    numK (Acc.finalArr m c) i
      = Spec.tiledTotal (m ((c : Thread nD τ).loc main_arg0)) (m ((c : Thread nD τ).loc main_arg1)) := by
  rw [numK_apply]
  unfold Spec.tiledTotal
  refine Finset.sum_congr rfl fun I _ => ?_
  show Acc.partialSum m c (8 * I.val + 7) = _
  unfold Acc.partialSum
  have h1 : (8 * I.val + 7) % 8 + 1 = 8 := by omega
  have h2 : (8 * I.val + 7) / 8 = I.val := by omega
  rw [h1, h2, Finset.sum_range]

/-- The "label is 1" mask as the tail finds it. -/
theorem V7_eq (c : Dev nD) : (V m c main_v7 : S16384.Idx → BitVec 1)
    = cmpi .eq (m ((c : Thread nD τ).loc main_arg1)) (broadcastInDim S16384 ![] bcast_S_S16384 (constantI S_ 32 1#32)) := by
  dsimp only [V, V0]
  simp only [hostOps0, hostOps0_1, hostOps0_2, hostOps0_3, hostOps0_4, List.flatten_cons, List.flatten_nil, List.append_nil,
    List.cons_append, List.nil_append]
  after_results

/-- The "label is 0" mask as the tail finds it. -/
theorem V9_eq (c : Dev nD) : (V m c main_v9 : S16384.Idx → BitVec 1)
    = cmpi .eq (m ((c : Thread nD τ).loc main_arg1)) (broadcastInDim S16384 ![] bcast_S_S16384 (constantI S_ 32 0#32)) := by
  dsimp only [V, V0]
  simp only [hostOps0, hostOps0_1, hostOps0_2, hostOps0_3, hostOps0_4, List.flatten_cons, List.flatten_nil, List.append_nil,
    List.cons_append, List.nil_append]
  after_results

/-- The program's result buffer after the tail: numerator of the final array over the pair count. -/
theorem tail_eq (c : Dev nD) :
    (Pipeline.afterTail₀ cfgs (dats m) 0 (V0 m) [hostOps1] c main_v26 : S_.Idx → EReal)
      = Host.divf (F := Ideal) (φ := .f32) (numK (Acc.finalArr m c)) (denK (m ((c : Thread nD τ).loc main_arg1))) := by
  unfold Pipeline.afterTail₀
  show StableHlo.after hostOps1 _ (Proc.devRef .tc main_v26) = _
  after_results
  have hA : Pipeline.withArrays (cfgs 0).spec c (V0 m c) (fun w => (dats m 0 c).arrAt w (cfgs 0).N) (Proc.devRef .tc main_v16)
      = Acc.finalArr m c := (Pipeline.withArrays_arr spec0 launch0.win.arr_inj c _ _ 2).trans (Acc.final m c)
  have h7 : Pipeline.withArrays (cfgs 0).spec c (V0 m c) (fun w => (dats m 0 c).arrAt w (cfgs 0).N) (Proc.devRef .tc main_v7)
      = cmpi .eq (m ((c : Thread nD τ).loc main_arg1)) (broadcastInDim S16384 ![] bcast_S_S16384 (constantI S_ 32 1#32)) :=
    (Pipeline.withArrays_of_ne spec0 c (V0 m c) _ main_v7 (by exact (by decide : ∀ w, Pipeline.arrRef spec0 w ≠ main_v7))).trans (V7_eq m c)
  have h9 : Pipeline.withArrays (cfgs 0).spec c (V0 m c) (fun w => (dats m 0 c).arrAt w (cfgs 0).N) (Proc.devRef .tc main_v9)
      = cmpi .eq (m ((c : Thread nD τ).loc main_arg1)) (broadcastInDim S16384 ![] bcast_S_S16384 (constantI S_ 32 0#32)) :=
    (Pipeline.withArrays_of_ne spec0 c (V0 m c) _ main_v9 (by exact (by decide : ∀ w, Pipeline.arrRef spec0 w ≠ main_v9))).trans (V9_eq m c)
  rw [hA, h7, h9]
  rfl

/-- The program's result: the tiled total over the pair count. -/
theorem result_eq (c : Dev nD) :
    (Pipeline.afterTail₀ cfgs (dats m) 0 (V0 m) [hostOps1] c main_v26 : S_.Idx → EReal)
      = Host.divf (F := Ideal) (φ := .f32)
          (fun _ => Spec.tiledTotal (m ((c : Thread nD τ).loc main_arg0)) (m ((c : Thread nD τ).loc main_arg1)))
          (denK (m ((c : Thread nD τ).loc main_arg1))) := by
  rw [tail_eq]
  exact congrArg (fun n => Host.divf (F := Ideal) (φ := .f32) n (denK (m ((c : Thread nD τ).loc main_arg1)))) (funext (num_final m c))

/-- The kernel program's run, read at its result: every execution ends with the result buffer at the tiled total over
    the pair count, and the two inputs unchanged. -/
theorem run (ρ : Dev nD → PrngReg) :
    θ_run defs (onTc (τ := τ) (main (F := Ideal))) ⟨m, fun _ => 0, ρ⟩ fun r => ∀ c : Dev nD,
      r.2.mem ((c : Thread nD τ).loc main_v26)
          = Host.divf (F := Ideal) (φ := .f32)
              (fun _ => Spec.tiledTotal (m ((c : Thread nD τ).loc main_arg0)) (m ((c : Thread nD τ).loc main_arg1)))
              (denK (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v26 (Pipeline.mem_restRefs_of main_v26 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.RefValue.lean ====
/-
  The reference program's numerator is the plain total.

  The reference forms, for every pair (i, j), the sigmoid values sigma(x_i) and sigma(x_j) (each spelt 1 / (1 + exp(-x))),
  the clamped margin max(c - (sigma(x_i) - sigma(x_j)), 0), keeps it where label i is 1 and label j is 0 and puts 0
  elsewhere, and sums the 16384 x 16384 table from the zero word. Read entry by entry through the column and row
  broadcasts, entry (i, j) of the table is the plainly masked hinge of Spec, and the sum over the table is the double sum
  over i and j.
-/
import proofs.«163605_j69672959475956_2_alg».proof.Proof.Gen.ReferenceIdeal.Read
import proofs.«163605_j69672959475956_2_alg».proof.Proof.Spec
import proofs.«163605_j69672959475956_2_alg».proof.Proof.LibSpellings

noncomputable section

namespace Cert.ReferenceIdeal.RefValue

open Cert.ReferenceIdeal Cert.ReferenceIdeal.Gen Cert.ReferenceIdeal.Read Idealize.ShloMosaic Idealize.ShloMosaic.ValueIdx

/-- Entry (a, b) of the masked table. -/
theorem pair_apply (x0 : S16384.Idx → EReal) (x1 : S16384.Idx → BitVec 32) (a b : Fin 16384) :
    val_main_v28 (F := Ideal) x0 x1 (ix2 a b)
      = HingeLaw.plain (Ideal.ofBits .f32 0x3E99999A#32) (Spec.pb x1 a.val) (Spec.nb x1 b.val) (Spec.sg x0 a.val) (Spec.sg x0 b.val) := by
  have e20 : idx_main_v18 (idx_main_v20 (ix2 a b)) = ix1 a := by funext d; match d with | ⟨0, _⟩ => rfl
  have e21 : idx_main_v19 (idx_main_v21 (ix2 a b)) = ix1 b := by funext d; match d with | ⟨0, _⟩ => rfl
  have e12 : idx_main_v10 (idx_main_v12 (ix2 a b)) = ix1 a := by funext d; match d with | ⟨0, _⟩ => rfl
  have e13 : idx_main_v11 (idx_main_v13 (ix2 a b)) = ix1 b := by funext d; match d with | ⟨0, _⟩ => rfl
  rw [Spec.pb_fin, Spec.nb_fin, Spec.sg_fin, Spec.sg_fin]
  rw [val_main_v28_apply, val_main_v22_apply, val_main_v20_apply, val_main_v18_apply, val_main_v7_apply, val_main_v6_apply,
    val_main_c_apply, val_main_v21_apply, val_main_v19_apply, val_main_v9_apply, val_main_v8_apply, val_main_c_1_apply,
    val_main_v17_apply, val_main_v16_apply, val_main_v15_apply, val_main_cst_2_apply, val_main_v14_apply,
    val_main_v12_apply, val_main_v10_apply, val_main_v13_apply, val_main_v11_apply,
    val_main_call0_v0_apply, val_main_call0_cst_apply, val_main_call1_v1_apply, val_main_call1_v0_apply, val_main_cst_5_apply,
    e20, e21, e12, e13]
  simp only [val_main_v5_apply, val_main_v4_apply, val_main_cst_0_apply, val_main_v3_apply, val_main_v2_apply, val_main_cst_apply,
    val_main_v1_apply, val_main_v0_apply, Cert.LibSpellings.hostQuotient_eq_logistic]
  unfold HingeLaw.plain
  simp only [Ideal.ofBits_def, Ideal.maximumf_def, Ideal.subf_def, Ideal.logistic_def, Ideal.ofBits_zero_f32]

/-- The numerator: the sum of the masked table from the zero word is the plain total. -/
theorem num_eq (x0 : S16384.Idx → EReal) (x1 : S16384.Idx → BitVec 32) (i : S_.Idx) :
    val_main_v29 (F := Ideal) x0 x1 i = Spec.plainTotal x0 x1 := by
  rw [val_main_v29_apply, val_main_cst_6_apply, Ideal.ofBits_def, Ideal.ofBits_zero_f32, zero_add, sum_idx2]
  unfold Spec.plainTotal
  exact Finset.sum_congr rfl fun a _ => Finset.sum_congr rfl fun b _ => pair_apply x0 x1 a b

end Cert.ReferenceIdeal.RefValue

end
-- ==== Proof.Finite.lean ====
/-
  The precondition says every score is a real number.

  The precondition is the conjunction over all n of "|x_n| < +infinity", computed as a reduction by "and" from 1. If the
  reduction is 1, every conjunct is 1. The word it compares against is the infinity word, which denotes the top element;
  |x| = max(x, -x) is the top element exactly when x is one of the two infinities; so each x_n is a real number.
-/
import proofs.«163605_j69672959475956_2_alg».proof.Pre_finite_inputs
import proofs.«163605_j69672959475956_2_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Cert.Pre_finite_inputs

instance : Subsingleton S_.Idx := ⟨fun a b => funext fun d => d.elim0⟩

/-- An extended real whose absolute value is below the top element is a real number. -/
theorem real_of_abs_lt_top (x : EReal) (h : max x (-x) < ⊤) : ∃ r : ℝ, x = (r : EReal) := by
  revert h
  refine EReal.rec (motive := fun x => max x (-x) < ⊤ → ∃ r : ℝ, x = (r : EReal)) ?_ ?_ ?_ x
  · intro h; simp at h
  · intro r _; exact ⟨r, rfl⟩
  · intro h; simp at h

/-- If the precondition's value is 1, every score is a real number. -/
theorem real_of_pre (x0 : FVec Ideal S16384 .f32) (x1 : IVec S16384 32)
    (h : fn (F := Ideal) x0 x1 = fun _ => 1#1) (i : S16384.Idx) : ∃ r : ℝ, x0 i = (r : EReal) := by
  have h0 := congrFun h ix0
  dsimp only [fn] at h0
  have hi := Host.reduce_andi_all _ _ _ _ ix0 h0 i
  have hb : broadcastInDim S16384 ![] Facts.bcast_S_S16384 (constant (F := Ideal) S_ .f32 0x7F800000#32) i
      = Ideal.ofBits .f32 0x7F800000#32 := broadcastInDim_apply _ _ _ i ix0 (fun a => a.elim0)
  have htop : Ideal.ofBits .f32 0x7F800000#32 = ⊤ := by simp [Ideal.ofBits, Ideal.ieee]
  have hc : Ideal.cmp .olt (max (x0 i) (-(x0 i))) ⊤ = 1#1 := by
    rw [← htop, ← hb]
    exact hi
  apply real_of_abs_lt_top
  by_contra hne
  unfold Ideal.cmp at hc
  simp [hne] at hc

end Cert.Finite

end
-- ==== Proof.lean ====
/-
  A pairwise margin-ranking hinge over sigmoid scores, tiled on a grid, against the plainly masked all-pairs form.

  Inputs: scores x (16384 floats) and labels y (16384 integers). With s_n = 1 / (1 + exp(-x_n)), c the margin (0.3) and the
  pair count P = #{n : y_n = 1} x #{n : y_n = 0}, both programs return

      ( sum over pairs (i, j) with y_i = 1 and y_j = 0 of max(c - (s_i - s_j), 0) ) / P.

  The reference builds the 16384 x 16384 table of clamped margins, puts 0 outside the mask, and sums it. The kernel
  program folds the mask into two vectors, t_i = (y_i = 1 ? c - s_i : N) and u_j = (y_j = 0 ? s_j : N) with N a very
  negative finite sentinel, sums max(t_i + u_j, 0) over 1024 x 2048 tiles on a 16 x 8 grid, accumulates the 8 tiles of a
  row tile in one output block, and finally adds the 16 blocks' sums.

  Over the extended reals the two numerators are equal when every score is a real number:
    * on a masked-in pair, (c - s_i) + s_j = c - (s_i - s_j) for real s;
    * on a masked-out pair the sentinel makes the tiled sum at most 0 (since c <= 1, N <= -1, 0 <= s <= 1), so its clamp
      is the reference's 0;
    * the tiles partition the pairs, and sums of extended reals may be regrouped freely.
  The precondition (every score finite) supplies the reality of the scores; the denominators are one expression of the
  labels in both programs. Nothing was rewritten between the kernel and its idealization.

  Modules: HingeLaw (the pointwise law), LibTileSums (the regrouping of sums by tiles), Spec (both totals and their
  equality), Finite (the precondition), RefValue (the reference's numerator), KernelCases / KernelTile / KernelEntry /
  KernelAcc / KernelTail (the kernel program's result, read off its run).
-/
import proofs.«163605_j69672959475956_2_alg».proof.Defs
import proofs.«163605_j69672959475956_2_alg».proof.Proof.Gen.Kernel
import proofs.«163605_j69672959475956_2_alg».proof.Proof.Gen.Kernel.Skeleton
import proofs.«163605_j69672959475956_2_alg».proof.Proof.Gen.Kernel.Launch
import proofs.«163605_j69672959475956_2_alg».proof.Proof.Gen.Kernel.Points
import proofs.«163605_j69672959475956_2_alg».proof.Proof.Gen.Kernel.Frame
import proofs.«163605_j69672959475956_2_alg».proof.Proof.Gen.KernelIdeal
import proofs.«163605_j69672959475956_2_alg».proof.Proof.Gen.KernelIdeal.Skeleton
import proofs.«163605_j69672959475956_2_alg».proof.Proof.Gen.KernelIdeal.Launch
import proofs.«163605_j69672959475956_2_alg».proof.Proof.Gen.KernelIdeal.Points
import proofs.«163605_j69672959475956_2_alg».proof.Proof.Gen.KernelIdeal.Frame
import proofs.«163605_j69672959475956_2_alg».proof.Proof.Gen.ReferenceIdeal
import proofs.«163605_j69672959475956_2_alg».proof.Proof.Gen.ReferenceIdeal.Run
import proofs.«163605_j69672959475956_2_alg».proof.Proof.Gen.ReferenceIdeal.Read
import proofs.«163605_j69672959475956_2_alg».proof.Proof.Gen.Pre_finite_inputs
import proofs.«163605_j69672959475956_2_alg».proof.Proof.KernelTail
import proofs.«163605_j69672959475956_2_alg».proof.Proof.RefValue
import proofs.«163605_j69672959475956_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no grid: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at (total) / (pair count): the kernel program at the tiled total, the reference at the plain total,
    equal for real scores; the pair count is one expression of the labels. -/
theorem algebraic : Cert.algebraic_KernelIdeal_ReferenceIdeal := by
  intro m ρ m' ρ' hpre hagree
  refine ⟨fun c => Host.divf (F := Ideal) (φ := .f32)
      (fun _ => Cert.Spec.tiledTotal (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.KernelIdeal.Tail.denK (m ((c.tc : Thread Cert.KernelIdeal.nD Cert.KernelIdeal.τ).loc Cert.KernelIdeal.main_arg1))),
    Cert.KernelIdeal.Tail.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, (hagree c).1, (hagree c).2]
  unfold Cert.ReferenceIdeal.Read.val_main_v31
  have hfin := fun i => Cert.Finite.real_of_pre _ _ (hpre c) i
  beta_reduce
  rw [Cert.Spec.totals_eq _ _ hfin]
  have hn : Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      = fun _ => Cert.Spec.plainTotal (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) :=
    funext (Cert.ReferenceIdeal.RefValue.num_eq _ _)
  rw [hn]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
